-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_v33

def fn {F : FTy → Type} [FloatOps F] (main_arg0 : FVec F S40000x128 .f32) (main_arg1 : IVec S640000 32) (main_arg2 : IVec S640000 32) (main_arg3 : FVec F S640000 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000 .f32 := Host.absf main_arg3
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S5000x128 : Shape := ⟨2, ![5000, 128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S1x64 : Shape := ⟨2, ![1, 64]⟩
abbrev S40000x64 : Shape := ⟨2, ![40000, 64]⟩
abbrev S5000x64 : Shape := ⟨2, ![5000, 64]⟩

abbrev nBuf : Space → Nat
  | .hbm => 50
  | .vmem => 28
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S640000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S40000x128, .f32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S640000x1, .f32⟩
  | .hbm, ⟨21, _⟩ => ⟨S640000x128, .f32⟩
  | .hbm, ⟨22, _⟩ => ⟨S640000x128, .f32⟩
  | .hbm, ⟨23, _⟩ => ⟨S_, .f32⟩
  | .hbm, ⟨24, _⟩ => ⟨S40000x128, .f32⟩
  | .hbm, ⟨25, _⟩ => ⟨S640000x1, .i32⟩
  | .hbm, ⟨26, _⟩ => ⟨S40000x128, .f32⟩
  | .hbm, ⟨27, _⟩ => ⟨S1x128, .f32⟩
  | .hbm, ⟨28, _⟩ => ⟨S40000x128, .f32⟩
  | .hbm, ⟨29, _⟩ => ⟨S40000x128, .f32⟩
  | .hbm, ⟨30, _⟩ => ⟨S_, .i32⟩
  | .hbm, ⟨31, _⟩ => ⟨S640000, .i32⟩
  | .hbm, ⟨32, _⟩ => ⟨S640000, .i1⟩
  | .hbm, ⟨33, _⟩ => ⟨S_, .i32⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S640000x1, .i32⟩
  | .hbm, ⟨38, _⟩ => ⟨S640000x128, .f32⟩
  | .hbm, ⟨39, _⟩ => ⟨S640000x1, .f32⟩
  | .hbm, ⟨40, _⟩ => ⟨S640000x128, .f32⟩
  | .hbm, ⟨41, _⟩ => ⟨S640000x128, .f32⟩
  | .hbm, ⟨42, _⟩ => ⟨S_, .f32⟩
  | .hbm, ⟨43, _⟩ => ⟨S40000x128, .f32⟩
  | .hbm, ⟨44, _⟩ => ⟨S640000x1, .i32⟩
  | .hbm, ⟨45, _⟩ => ⟨S40000x128, .f32⟩
  | .hbm, ⟨46, _⟩ => ⟨S1x128, .f32⟩
  | .hbm, ⟨47, _⟩ => ⟨S40000x128, .f32⟩
  | .hbm, ⟨48, _⟩ => ⟨S1x64, .f32⟩
  | .hbm, ⟨49, _⟩ => ⟨S40000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  dot_S5000x128_S128x128_S5000x128_1_0_0_1_n_n_wf : DotDims.WF S5000x128 S128x128 S5000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S40000x128.size a
  hwx0_2 : ∀ i : grid0.Coords, EltTy.bits .f32 = 32 ∨ (Rect.block (s := S40000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S40000x128.size a
  hwx1_2 : ∀ i : grid1.Coords, EltTy.bits .f32 = 32 ∨ (Rect.block (s := S40000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S40000x128.size a
  hwx2_0 : ∀ i : grid2.Coords, EltTy.bits .f32 = 32 ∨ (Rect.block (s := S40000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S40000x128.size a
  hwx2_2 : ∀ i : grid2.Coords, EltTy.bits .f32 = 32 ∨ (Rect.block (s := S40000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S40000x128.size a
  hwx3_0 : ∀ i : grid3.Coords, EltTy.bits .f32 = 32 ∨ (Rect.block (s := S40000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S40000x128.size a
  hwx3_2 : ∀ i : grid3.Coords, EltTy.bits .f32 = 32 ∨ (Rect.block (s := S40000x128) S5000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S40000x128.size a
  hwx3_3 : ∀ i : grid3.Coords, EltTy.bits .f32 = 32 ∨ (Rect.block (s := S40000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S40000x128.size a
  hwx4_0 : ∀ i : grid4.Coords, EltTy.bits .f32 = 32 ∨ (Rect.block (s := S40000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S40000x64.size a
  hwx4_3 : ∀ i : grid4.Coords, EltTy.bits .f32 = 32 ∨ (Rect.block (s := S40000x64) S5000x64.size (cc4_transform_3 i) (hinb4_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v15) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v31) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v31) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v32) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v33) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S40000x64 : Shape := ⟨2, ![40000, 64]⟩
abbrev S1x64 : Shape := ⟨2, ![1, 64]⟩

abbrev nBuf : Space → Nat
  | .hbm => 61
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S640000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S40000x128, .f32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S640000x1, .f32⟩
  | .hbm, ⟨21, _⟩ => ⟨S640000x128, .f32⟩
  | .hbm, ⟨22, _⟩ => ⟨S640000x128, .f32⟩
  | .hbm, ⟨23, _⟩ => ⟨S_, .f32⟩
  | .hbm, ⟨24, _⟩ => ⟨S40000x128, .f32⟩
  | .hbm, ⟨25, _⟩ => ⟨S640000x1, .i32⟩
  | .hbm, ⟨26, _⟩ => ⟨S40000x128, .f32⟩
  | .hbm, ⟨27, _⟩ => ⟨S1x128, .f32⟩
  | .hbm, ⟨28, _⟩ => ⟨S40000x128, .f32⟩
  | .hbm, ⟨29, _⟩ => ⟨S40000x128, .f32⟩
  | .hbm, ⟨30, _⟩ => ⟨S_, .f32⟩
  | .hbm, ⟨31, _⟩ => ⟨S40000x128, .f32⟩
  | .hbm, ⟨32, _⟩ => ⟨S40000x128, .f32⟩
  | .hbm, ⟨33, _⟩ => ⟨S40000x128, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S640000x128, .f32⟩
  | .hbm, ⟨43, _⟩ => ⟨S640000x1, .f32⟩
  | .hbm, ⟨44, _⟩ => ⟨S640000x128, .f32⟩
  | .hbm, ⟨45, _⟩ => ⟨S640000x128, .f32⟩
  | .hbm, ⟨46, _⟩ => ⟨S_, .f32⟩
  | .hbm, ⟨47, _⟩ => ⟨S40000x128, .f32⟩
  | .hbm, ⟨48, _⟩ => ⟨S640000x1, .i32⟩
  | .hbm, ⟨49, _⟩ => ⟨S40000x128, .f32⟩
  | .hbm, ⟨50, _⟩ => ⟨S1x128, .f32⟩
  | .hbm, ⟨51, _⟩ => ⟨S40000x128, .f32⟩
  | .hbm, ⟨52, _⟩ => ⟨S40000x128, .f32⟩
  | .hbm, ⟨53, _⟩ => ⟨S_, .f32⟩
  | .hbm, ⟨54, _⟩ => ⟨S40000x128, .f32⟩
  | .hbm, ⟨55, _⟩ => ⟨S40000x128, .f32⟩
  | .hbm, ⟨56, _⟩ => ⟨S40000x128, .f32⟩
  | .hbm, ⟨57, _⟩ => ⟨S40000x64, .f32⟩
  | .hbm, ⟨58, _⟩ => ⟨S1x64, .f32⟩
  | .hbm, ⟨59, _⟩ => ⟨S40000x64, .f32⟩
  | .hbm, ⟨60, _⟩ => ⟨S40000x64, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_cst : Ref sig .tc := ⟨.hbm, 53, rfl⟩
abbrev main_call1_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  dot_S40000x128_S128x128_S40000x128_1_0_0_1_n_n_wf : DotDims.WF S40000x128 S128x128 S40000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x64_S40000x64_1_0_0_1_n_n_wf : DotDims.WF S40000x128 S128x64 S40000x64 [1] [0] [0] [1] [] []

variable [Facts₀]

def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x64_S40000x64_1_0_0_1_n_n : DotDims S40000x128 S128x64 S40000x64 where
  lhsContracting := [1]
  rhsContracting := [0]
  lhsNonContracting := [0]
  rhsNonContracting := [1]
  lhsBatch := []
  rhsBatch := []
  wf := dot_S40000x128_S128x64_S40000x64_1_0_0_1_n_n_wf

class Facts : Prop extends Facts₀ where

variable [Facts]
-- ==== Proof.RunAll.lean ====
/-
  The idealized kernel's run with every buffer named.

  @main is five launches among three stretches of host operations. Its run is a fold through those eight segments:
  from the launch memory, each launch replaces the contents of its output array by what its grid points write back
  and leaves every other buffer alone, and each host stretch replaces the buffers its operations define. The theorem
  here states the whole run with that fold as its post: every weakly fair execution terminates, nothing faults, and
  each buffer that outlives the launches ends holding the fold's last contents.
-/
import proofs.«164055_j11321533792937_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and every buffer that is not scoped to a launch
    ends at the last contents of the fold through @main's segments. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The same run read at the buffers of interest: the result array at the fold's last contents, each argument
    array as launched. -/
theorem run_result : θ_run defs (onTc (τ := τ) (main (F := F))) ⟨m, fun _ => 0, ρ⟩ (fun r => ∀ c : Dev nD,
      r.2.mem ((c.tc : Thread nD τ).loc main_v33) = W8 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun s h c =>
      ⟨h c _ (mem_uc main_v33 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)
    (run_all m ρ)

end Cert.KernelIdeal.RunValue

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.LibDenseLayer.lean ====
/-
  A dense layer at the extended reals, read one block of rows at a time.

  A matrix of M rows is cut into blocks of Mb consecutive rows. Every operation of a dense layer — a rows-by-columns
  product with a fixed right factor, an entrywise sum or maximum, the addition of one bias row to every row, a
  constant matrix — acts on each row by itself, so what it makes of a block of rows is the same block of rows of
  what it makes of the whole matrix. `RowBlk off xb X` says that `xb` is the block of `X` that starts at row
  `off`; the lemmas below carry that relation through each operation. No finiteness is asked of any entry: the
  two sides are the same sums of the same products.
-/
import Idealize.ShloMosaic.PureOps.Ideal.Laws
import Idealize.ShloMosaic.Lib.ValueIdx
import Idealize.ShloMosaic.Lib.Pipeline.Value
import proofs.«164055_j11321533792937_1_alg».proof.Proof.LibPlainDot

noncomputable section

open scoped BigOperators

namespace Cert.Lib.DenseLayer

open Idealize.ShloMosaic Idealize.ShloMosaic.ValueIdx Cert.Lib.PlainDot

/-- A rank-2 record that contracts the left operand's second axis with the right operand's first and has no
    batch axis: the six facts that read it as the textbook product. -/
structure Plain {M K N : Nat} (d : DotDims ⟨2, ![M, K]⟩ ⟨2, ![K, N]⟩ ⟨2, ![M, N]⟩) : Prop where
  rank : d.contr.rank = 1
  size : d.contr.size ⟨0, by omega⟩ = K
  l0 : ∀ (i : (⟨2, ![M, N]⟩ : Shape).Idx) (q : d.contr.Idx), (d.lhsIdx i q 0).val = (i 0).val
  l1 : ∀ (i : (⟨2, ![M, N]⟩ : Shape).Idx) (q : d.contr.Idx), (d.lhsIdx i q 1).val = (q ⟨0, by omega⟩).val
  r0 : ∀ (i : (⟨2, ![M, N]⟩ : Shape).Idx) (q : d.contr.Idx), (d.rhsIdx i q 0).val = (q ⟨0, by omega⟩).val
  r1 : ∀ (i : (⟨2, ![M, N]⟩ : Shape).Idx) (q : d.contr.Idx), (d.rhsIdx i q 1).val = (i 1).val

/-- The product at entry (r, c) is the sum over k of l(r, k) · w(k, c). -/
theorem Plain.dot_apply {M K N : Nat} {d : DotDims ⟨2, ![M, K]⟩ ⟨2, ![K, N]⟩ ⟨2, ![M, N]⟩} (hd : Plain d)
    (l : FVec Ideal ⟨2, ![M, K]⟩ .f32) (w : FVec Ideal ⟨2, ![K, N]⟩ .f32) (r : Fin M) (c : Fin N) :
    Host.dotGeneral d none l w (ix2 r c) = ∑ k : Fin K, l (ix2 r k) * w (ix2 k c) :=
  dotGeneral_apply_ix2 d hd.rank hd.size hd.l0 hd.l1 hd.r0 hd.r1 none l w r c

/-- `xb` is the block of `Mb` rows of `X` that starts at row `off`. -/
def RowBlk {Mb M K : Nat} (off : Nat) (xb : (⟨2, ![Mb, K]⟩ : Shape).Idx → EReal) (X : (⟨2, ![M, K]⟩ : Shape).Idx → EReal) : Prop :=
  ∀ (r : Fin Mb) (h : off + r.val < M) (k : Fin K), xb (ix2 r k) = X (ix2 ⟨off + r.val, h⟩ k)

/-- A block of rows times a matrix is the block of rows of the product. -/
theorem RowBlk.dot {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) :
    RowBlk off (Host.dotGeneral db none xb w) (Host.dotGeneral dh none X w) := fun r hr c => by
  rw [hb.dot_apply, hh.dot_apply]
  exact Finset.sum_congr rfl fun k _ => congrArg (· * w (ix2 k c)) (h r hr k)

/-- The matrix unit's product of narrowed operands into the zero matrix, on a block of rows. -/
theorem RowBlk.matmul {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) (h₁ : FTy.bf16.bits < FTy.f32.bits) (h₂ : FTy.bf16.bits < FTy.f32.bits) :
    RowBlk off (matmul db none (truncf .bf16 xb h₁) (truncf .bf16 w h₂) (constant ⟨2, ![Mb, N]⟩ .f32 0x00000000#32))
      (Host.dotGeneral dh none X w) := by
  rw [matmul_truncf_zero_eq_dotGeneral]
  exact h.dot hb hh w

/-- Entrywise sums of blocks of rows. -/
theorem RowBlk.add {Mb M K : Nat} {off : Nat} {a b : FVec Ideal ⟨2, ![Mb, K]⟩ .f32} {A B : FVec Ideal ⟨2, ![M, K]⟩ .f32}
    (ha : RowBlk off a A) (hb : RowBlk off b B) : RowBlk off (addf a b) (addf A B) := fun r hr k => by
  rw [addf_apply, addf_apply, ha r hr k, hb r hr k]

/-- Entrywise maxima of blocks of rows. -/
theorem RowBlk.max {Mb M K : Nat} {off : Nat} {a b : FVec Ideal ⟨2, ![Mb, K]⟩ .f32} {A B : FVec Ideal ⟨2, ![M, K]⟩ .f32}
    (ha : RowBlk off a A) (hb : RowBlk off b B) : RowBlk off (maximumf a b) (maximumf A B) := fun r hr k => by
  rw [maximumf_apply, maximumf_apply, ha r hr k, hb r hr k]

/-- Two constant matrices of one value. -/
theorem RowBlk.const {Mb M K : Nat} {off : Nat} {z : (⟨2, ![Mb, K]⟩ : Shape).Idx → EReal} {Z : (⟨2, ![M, K]⟩ : Shape).Idx → EReal}
    (v : EReal) (hz : ∀ i, z i = v) (hZ : ∀ i, Z i = v) : RowBlk off z Z := fun r hr k => (hz _).trans (hZ _).symm

/-- One bias row added to every row: inside the body a broadcast of the row to the block, on the host a
    broadcast along the rows to the whole matrix. -/
theorem RowBlk.bias {Mb M N : Nat} {off : Nat} (b : (⟨2, ![1, N]⟩ : Shape).Idx → EReal)
    (hb : (⟨2, ![1, N]⟩ : Shape).Broadcasts ⟨2, ![Mb, N]⟩)
    (hB : (⟨2, ![1, N]⟩ : Shape).BroadcastsInDim ⟨2, ![M, N]⟩ ![0, 1]) :
    RowBlk off (broadcastTo ⟨2, ![Mb, N]⟩ b hb) (broadcastInDim ⟨2, ![M, N]⟩ ![0, 1] hB b) := fun r hr c => by
  have hc : N = 1 → c.val = 0 := fun e => by have := c.isLt; omega
  rw [broadcastTo_apply b hb (ix2 r c) (ix2 0 c) (fun a => by
        match a with
        | ⟨0, _⟩ => exact (if_pos rfl).symm
        | ⟨1, _⟩ =>
          show c.val = if N = 1 then 0 else c.val
          split
          · exact hc ‹_›
          · rfl),
      broadcastInDim_apply ![0, 1] hB b (ix2 ⟨off + r.val, hr⟩ c) (ix2 0 c) (fun a => by
        match a with
        | ⟨0, _⟩ => exact (if_pos rfl).symm
        | ⟨1, _⟩ =>
          show c.val = if N = 1 then 0 else c.val
          split
          · exact hc ‹_›
          · rfl)]

/-- A block that is the whole matrix (one block, starting at row 0). -/
theorem RowBlk.whole {M K : Nat} (X : (⟨2, ![M, K]⟩ : Shape).Idx → EReal) : RowBlk 0 X X := fun r hr k => by
  have : (⟨0 + r.val, hr⟩ : Fin M) = r := Fin.ext (Nat.zero_add _)
  rw [this]

/-- A vector of n entries made a 1×n row — by a reshape, or by a broadcast along a new unit axis — is one and the
    same row. -/
theorem addUnit_eq_bcast {α : Type} {n : Nat} (hn : n ≠ 1) (b : (⟨1, ![n]⟩ : Shape).Idx → α)
    (hs : (⟨1, ![n]⟩ : Shape).ShapeCasts ⟨2, ![1, n]⟩) (hb : (⟨1, ![n]⟩ : Shape).BroadcastsInDim ⟨2, ![1, n]⟩ ![1]) :
    shapeCast ⟨2, ![1, n]⟩ b hs = broadcastInDim ⟨2, ![1, n]⟩ ![1] hb b := funext fun j =>
  (shapeCast_addUnit_apply ![n] b hs j).trans
    (broadcastInDim_apply ![1] hb b j (fun a => j a.succ) (fun a => by
      match a with
      | ⟨0, _⟩ => exact (if_neg hn).symm)).symm

end Cert.Lib.DenseLayer

end
-- ==== Proof.LibPlainRecord.lean ====
/-
  A rank-2 product record whose dimension numbers are the plain ones — the left operand's second axis contracted with the
  right operand's first, no batch axis, the left rows then the right columns kept — reads as the textbook product:
  its contraction has one axis of extent K, the left operand is read at (row, k) and the right at (k, column).
-/
import proofs.«164055_j11321533792937_1_alg».proof.Proof.LibDenseLayer

noncomputable section

namespace Cert.Lib.DenseLayer

open Idealize.ShloMosaic Idealize.ShloMosaic.ValueIdx

/-- The six coordinate facts from the six lists of the dimension numbers. -/
theorem Plain.of_fields {M K N : Nat} (d : DotDims ⟨2, ![M, K]⟩ ⟨2, ![K, N]⟩ ⟨2, ![M, N]⟩)
    (h1 : d.lhsContracting = [1]) (h2 : d.rhsContracting = [0]) (h3 : d.lhsNonContracting = [0]) (h4 : d.rhsNonContracting = [1])
    (h5 : d.lhsBatch = []) (h6 : d.rhsBatch = []) : Plain d where
  rank := by rw [d.rank_contr, h1]; rfl
  size := by
    have : d.contr = Shape.ofList ([1].map (⟨2, ![M, K]⟩ : Shape).size) := by unfold DotDims.contr; rw [h1]
    rw [show d.contr.size ⟨0, by rw [d.rank_contr, h1]; exact Nat.one_pos⟩ = K from by
      unfold DotDims.contr; simp [h1, Shape.ofList]]
  l0 := fun i q => by
    have key : ∀ (n : Nat) (hn : n < 2), n = 0 → (i ⟨n, hn⟩).val = (i 0).val := fun n hn h0 => by subst h0; rfl
    unfold DotDims.lhsIdx
    simp only [h5, h3, List.not_mem_nil, dite_false, List.mem_singleton, dite_true, Fin.val_cast]
    exact key _ _ (by simp [h5, h3])
  l1 := fun i q => d.lhsIdx_val_of_single h1 i q
  r0 := fun i q => d.rhsIdx_val_of_single h2 i q
  r1 := fun i q => by
    have key : ∀ (n : Nat) (hn : n < 2), n = 1 → (i ⟨n, hn⟩).val = (i 1).val := fun n hn h0 => by subst h0; rfl
    unfold DotDims.rhsIdx
    simp only [h6, h4, List.not_mem_nil, dite_false, List.mem_singleton, dite_true, Fin.val_cast]
    exact key _ _ (by simp [h5, h3, h4])

/-- Entrywise products of blocks of rows. -/
theorem RowBlk.mul {Mb M K : Nat} {off : Nat} {a b : FVec Ideal ⟨2, ![Mb, K]⟩ .f32} {A B : FVec Ideal ⟨2, ![M, K]⟩ .f32}
    (ha : RowBlk off a A) (hb : RowBlk off b B) : RowBlk off (mulf a b) (mulf A B) := fun r hr k => by
  rw [mulf_apply, mulf_apply, ha r hr k, hb r hr k]

/-- A reshape to the same shape changes nothing. -/
theorem RowBlk.castSelf {Mb M K : Nat} {off : Nat} {a : (⟨2, ![Mb, K]⟩ : Shape).Idx → EReal} {A : (⟨2, ![M, K]⟩ : Shape).Idx → EReal}
    (ha : RowBlk off a A) (h : (⟨2, ![Mb, K]⟩ : Shape).ShapeCasts ⟨2, ![Mb, K]⟩) : RowBlk off (shapeCast ⟨2, ![Mb, K]⟩ a h) A := by
  rw [shapeCast_self]; exact ha

/-- An entrywise function of a block of rows. -/
theorem RowBlk.map {Mb M K : Nat} {off : Nat} {a : (⟨2, ![Mb, K]⟩ : Shape).Idx → EReal} {A : (⟨2, ![M, K]⟩ : Shape).Idx → EReal}
    (ha : RowBlk off a A) (f : EReal → EReal) : RowBlk off (fun i => f (a i)) (fun i => f (A i)) := fun r hr k => by
  show f (a (ix2 r k)) = f (A (ix2 ⟨off + r.val, hr⟩ k)); rw [ha r hr k]

end Cert.Lib.DenseLayer

end
-- ==== Proof.LibRowRead.lean ====
/-
  Reading the row-block relation of a dense layer at arbitrary indices.

  `RowBlk off xb X` says that `xb` is the block of rows of `X` that starts at row `off`, entry by entry at indices
  built from a row and a column. Here the same fact is read at ANY index `y` of the block and ANY index `i` of the
  whole matrix whose row is `off` plus `y`'s row and whose column is `y`'s column; and a block equal to a whole
  matrix entry by entry, read at indices with equal coordinates.
-/
import proofs.«164055_j11321533792937_1_alg».proof.Proof.LibPlainRecord

noncomputable section

namespace Cert.Lib.DenseLayer

open Idealize.ShloMosaic Idealize.ShloMosaic.ValueIdx

/-- The block's entry at `y` is the matrix's entry at `i` when `i` is `y` moved down by `off` rows. -/
theorem RowBlk.read {Mb M K : Nat} {off : Nat} {xb : (⟨2, ![Mb, K]⟩ : Shape).Idx → EReal} {X : (⟨2, ![M, K]⟩ : Shape).Idx → EReal}
    (h : RowBlk off xb X) (y : (⟨2, ![Mb, K]⟩ : Shape).Idx) (i : (⟨2, ![M, K]⟩ : Shape).Idx)
    (h0 : (i 0).val = off + (y 0).val) (h1 : (i 1).val = (y 1).val) : xb y = X i := by
  have hr : off + (y 0).val < M := h0 ▸ (i 0).isLt
  have ey : y = ix2 (y 0) (y 1) := eq_ix2 y
  have ei : i = ix2 ⟨off + (y 0).val, hr⟩ (y 1) := funext fun a => Fin.ext (by
    match a with
    | ⟨0, _⟩ => exact h0
    | ⟨1, _⟩ => exact h1)
  rw [ey, ei]
  exact h (y 0) hr (y 1)

/-- The converse packaging: a block whose every entry is the matrix's entry `off` rows further down. -/
theorem RowBlk.of_read {Mb M K : Nat} {off : Nat} {xb : (⟨2, ![Mb, K]⟩ : Shape).Idx → EReal} {X : (⟨2, ![M, K]⟩ : Shape).Idx → EReal}
    (e : (⟨2, ![Mb, K]⟩ : Shape).Idx → (⟨2, ![M, K]⟩ : Shape).Idx)
    (h0 : ∀ y, (e y 0).val = off + (y 0).val) (h1 : ∀ y, (e y 1).val = (y 1).val)
    (h : ∀ y, xb y = X (e y)) : RowBlk off xb X := fun r hr k => by
  rw [h (ix2 r k)]
  exact congrArg X (funext fun a => Fin.ext (by
    match a with
    | ⟨0, _⟩ => exact h0 (ix2 r k)
    | ⟨1, _⟩ => exact h1 (ix2 r k)))

/-- Two indices of one rank-2 shape with equal coordinates are equal. -/
theorem idx2_ext {A B : Nat} (i j : (⟨2, ![A, B]⟩ : Shape).Idx) (h0 : (i 0).val = (j 0).val) (h1 : (i 1).val = (j 1).val) :
    i = j := funext fun a => Fin.ext (by
  match a with
  | ⟨0, _⟩ => exact h0
  | ⟨1, _⟩ => exact h1)

end Cert.Lib.DenseLayer

end
-- ==== Proof.Spec.lean ====
/-
  The network both programs compute, as one function of the ten argument arrays.

  A graph of 40000 nodes carries 128 features per node; its weighted adjacency is given as 640000 (row, column, value)
  triples. One graph convolution multiplies the feature matrix by a weight matrix, sums over every edge the value
  times the column node's product row into the row node's row (a column index below zero counted from the end), adds
  a bias row and takes the maximum with zero. The network is two convolutions, the second added to the first's output,
  followed by a product with a 128×64 matrix plus a bias row. Every step is written with the host's own operations
  over the extended reals, so that a host program's composed term can be compared with it literally.
-/
import proofs.«164055_j11321533792937_1_alg».proof.Proof.Gen.ReferenceIdeal
import Idealize.ShloMosaic.PureOps.Ideal

noncomputable section

namespace Cert.Gcn

open Idealize.ShloMosaic Cert.ReferenceIdeal Cert.ReferenceIdeal.Gen

/-- A matrix or vector of extended reals of a given shape. -/
abbrev Arr (s : Shape) : Type := FVec Ideal s .f32
/-- One 32-bit index per edge. -/
abbrev Edges : Type := IVec S640000 32

/-- The 40000×128 matrix of zeros. -/
def zeros : Arr S40000x128 :=
  broadcastInDim S40000x128 ![] bcast_S_S40000x128 (constant (F := Ideal) S_ .f32 0x00000000#32)

/-- The adjacency applied to a node-feature matrix: for every edge, the value times the column node's row, summed into
    the row node's row (starting from zero). -/
def agg (row col : Edges) (val : Arr S640000) (dense : Arr S40000x128) : Arr S40000x128 :=
  Host.scatterAdd (F := Ideal) scatter_S40000x128_S640000x1_S640000x128_1_0_0_1 zeros
    (broadcastInDim S640000x1 ![0] bcast_S640000_S640000x1_0 row)
    (mulf
      (Host.gather gather_S40000x128_S640000x1_S640000x128_1_0_n_n_0_1_1128 dense
        (broadcastInDim S640000x1 ![0] bcast_S640000_S640000x1_0
          (select (cmpi .slt col (broadcastInDim S640000 ![] bcast_S_S640000 (constantI S_ 32 0#32)))
            (addi col (broadcastInDim S640000 ![] bcast_S_S640000 (constantI S_ 32 40000#32))) col)))
      (broadcastInDim S640000x128 ![0, 1] bcast_S640000x1_S640000x128_0_1
        (broadcastInDim S640000x1 ![0] bcast_S640000_S640000x1_0 val)))

/-- Node features times a 128×128 weight matrix. -/
def lin (X : Arr S40000x128) (W : Arr S128x128) : Arr S40000x128 :=
  Host.dotGeneral (F := Ideal) dot_S40000x128_S128x128_S40000x128_1_0_0_1_n_n none X W

/-- A vector of 128 numbers as a 1×128 row. -/
def row (b : Arr S128) : Arr S1x128 := broadcastInDim S1x128 ![1] bcast_S128_S1x128_1 b

/-- A vector of 64 numbers as a 1×64 row. -/
def row64 (b : Arr S64) : Arr S1x64 := broadcastInDim S1x64 ![1] bcast_S64_S1x64_1 b

/-- A bias row added to every row, then the maximum with zero. -/
def act (Z : Arr S40000x128) (r : Arr S1x128) : Arr S40000x128 :=
  maximumf (addf Z (broadcastInDim S40000x128 ![0, 1] bcast_S1x128_S40000x128_0_1 r)) zeros

/-- The classifier: node features times a 128×64 matrix, plus a bias row on every row. -/
def cls (H : Arr S40000x128) (Wf : Arr S128x64) (r : Arr S1x64) : Arr S40000x64 :=
  addf (Host.dotGeneral (F := Ideal) dot_S40000x128_S128x64_S40000x64_1_0_0_1_n_n none H Wf)
    (broadcastInDim S40000x64 ![0, 1] bcast_S1x64_S40000x64_0_1 r)

/-- The first convolution's output. -/
def layer1 (x : Arr S40000x128) (er ec : Edges) (ev : Arr S640000) (W1 : Arr S128x128) (b1 : Arr S128) : Arr S40000x128 :=
  act (agg er ec ev (lin x W1)) (row b1)

/-- The second convolution's output plus the first's. -/
def layer2 (h : Arr S40000x128) (er ec : Edges) (ev : Arr S640000) (W2 : Arr S128x128) (b2 : Arr S128) : Arr S40000x128 :=
  addf (act (agg er ec ev (lin h W2)) (row b2)) h

/-- The whole network. -/
def net (x : Arr S40000x128) (er ec : Edges) (ev : Arr S640000) (W1 : Arr S128x128) (b1 : Arr S128)
    (W2 : Arr S128x128) (b2 : Arr S128) (Wf : Arr S128x64) (bf : Arr S64) : Arr S40000x64 :=
  cls (layer2 (layer1 x er ec ev W1 b1) er ec ev W2 b2) Wf (row64 bf)

end Cert.Gcn

end
-- ==== Proof.Bodies.lean ====
/-
  What each of the five kernel bodies makes of a block of rows.

  Every body loads a block of 5000 consecutive rows of its row-blocked operands and the whole of its small operands
  (a weight matrix, a bias row), and stores one block of 5000 rows. Each is a composition of operations that act row
  by row — a product with the weight matrix (the narrowing casts are the identity on extended reals and the zero
  accumulator adds nothing), a bias row added to every row, a maximum with zero, an entrywise sum — so the stored
  block is the same block of rows of the corresponding whole-matrix function of the network.
-/
import proofs.«164055_j11321533792937_1_alg».proof.Proof.Gen.KernelIdeal.Skeleton
import proofs.«164055_j11321533792937_1_alg».proof.Proof.LibRowRead
import proofs.«164055_j11321533792937_1_alg».proof.Proof.Spec

noncomputable section

namespace Cert.KernelIdeal.Bodies

open Cert.KernelIdeal Cert.KernelIdeal.Gen
open Idealize.ShloMosaic Idealize.ShloMosaic.ValueIdx
open Cert.Lib.DenseLayer Cert.Gcn

/-- The records of the four products read as textbook products. -/
theorem plain_blk128 : Plain (dot_S5000x128_S128x128_S5000x128_1_0_0_1_n_n) := Plain.of_fields _ rfl rfl rfl rfl rfl rfl
theorem plain_all128 : Plain (Cert.ReferenceIdeal.dot_S40000x128_S128x128_S40000x128_1_0_0_1_n_n) :=
  Plain.of_fields _ rfl rfl rfl rfl rfl rfl
theorem plain_blk64 : Plain (dot_S5000x128_S128x64_S5000x64_1_0_0_1_n_n) := Plain.of_fields _ rfl rfl rfl rfl rfl rfl
theorem plain_all64 : Plain (Cert.ReferenceIdeal.dot_S40000x128_S128x64_S40000x64_1_0_0_1_n_n) :=
  Plain.of_fields _ rfl rfl rfl rfl rfl rfl

/-- The zero splat of a block against the zero matrix. -/
theorem zero_blk (off : Nat) :
    RowBlk off (broadcast S5000x128 (Scalar.ofBits (F := Ideal) .f32 0x00000000#32)) zeros :=
  RowBlk.const (Scalar.ofBits (F := Ideal) .f32 0x00000000#32) (fun _ => rfl) (fun _ => rfl)

/-- Adding a bias row to a block of rows and taking the maximum with zero. -/
theorem act_blk {off : Nat} {zb : FVec Ideal S5000x128 .f32} {Z : Arr Cert.ReferenceIdeal.S40000x128}
    (h : RowBlk off zb Z) (r : FVec Ideal S1x128 .f32) :
    RowBlk off (maximumf (addf zb (broadcastTo S5000x128 r broadcasts_S1x128_S5000x128))
      (broadcast S5000x128 (Scalar.ofBits (F := Ideal) .f32 0x00000000#32))) (act Z r) :=
  (h.add (RowBlk.bias r _ _)).max (zero_blk off)

/-- First and third launch: a block of rows times the weight matrix. -/
theorem body0 {off : Nat} {xb : FVec Ideal S5000x128 .f32} {X : Arr Cert.ReferenceIdeal.S40000x128}
    (h : RowBlk off xb X) (w : FVec Ideal S128x128 .f32) : RowBlk off (k0_pay1 (F := Ideal) xb w) (lin X w) := by
  unfold k0_pay1 lin
  exact h.matmul plain_blk128 plain_all128 w _ _

theorem body2 {off : Nat} {xb : FVec Ideal S5000x128 .f32} {X : Arr Cert.ReferenceIdeal.S40000x128}
    (h : RowBlk off xb X) (w : FVec Ideal S128x128 .f32) : RowBlk off (k2_pay1 (F := Ideal) xb w) (lin X w) := by
  unfold k2_pay1 lin
  rw [shapeCast_self]
  exact h.matmul plain_blk128 plain_all128 w _ _

/-- Second launch: bias and maximum with zero. -/
theorem body1 {off : Nat} {zb : FVec Ideal S5000x128 .f32} {Z : Arr Cert.ReferenceIdeal.S40000x128}
    (h : RowBlk off zb Z) (r : FVec Ideal S1x128 .f32) : RowBlk off (k1_pay1 (F := Ideal) zb r) (act Z r) := by
  unfold k1_pay1
  rw [shapeCast_self, shapeCast_self]
  exact act_blk h r

/-- Fourth launch: bias, maximum with zero, plus the residual block. -/
theorem body3 {off : Nat} {zb hb : FVec Ideal S5000x128 .f32} {Z H : Arr Cert.ReferenceIdeal.S40000x128}
    (h : RowBlk off zb Z) (r : FVec Ideal S1x128 .f32) (hh : RowBlk off hb H) :
    RowBlk off (k3_pay1 (F := Ideal) zb r hb) (addf (act Z r) H) := by
  unfold k3_pay1
  rw [shapeCast_self, shapeCast_self, shapeCast_self]
  exact (act_blk h r).add hh

/-- Fifth launch: a block of rows times the classifier matrix, plus its bias row. -/
theorem body4 {off : Nat} {xb : FVec Ideal S5000x128 .f32} {X : Arr Cert.ReferenceIdeal.S40000x128}
    (h : RowBlk off xb X) (w : FVec Ideal S128x64 .f32) (r : FVec Ideal S1x64 .f32) :
    RowBlk off (k4_pay1 (F := Ideal) xb w r) (cls X w r) := by
  unfold k4_pay1 cls
  rw [shapeCast_self, shapeCast_self]
  exact (h.matmul plain_blk64 plain_all64 w _ _).add (RowBlk.bias r _ _)

end Cert.KernelIdeal.Bodies

end
-- ==== Proof.Region0.lean ====
/-
  The first launch, at any contents `V` of the buffers on entry: its output array ends holding the product of the
  feature matrix (window 0's array) with the weight matrix (window 1's array).

  The grid has eight points. Point t reads rows 5000·t … 5000·t + 4999 of the feature matrix and the whole weight
  matrix, and writes back rows 5000·t … 5000·t + 4999 of the output: by the body's row-block fact these are the same
  rows of the whole product, and the eight blocks cover all 40000 rows.
-/
import proofs.«164055_j11321533792937_1_alg».proof.Proof.Gen.KernelIdeal.Frame
import proofs.«164055_j11321533792937_1_alg».proof.Proof.Bodies
import Idealize.ShloMosaic.Lib.Pipeline.Value

set_option maxRecDepth 16384

noncomputable section

namespace Cert.KernelIdeal.Region0

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat Cfg Window)
open Cert.Lib.DenseLayer Cert.Gcn

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row-blocked windows sit at block row t, the weight matrix at the origin. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Window 0's block at point t is the block of rows of its array that starts at row 5000·t. -/
theorem rows_in (c : Dev nD) (t : Fin cfg0.N) : RowBlk (t.val * 5000) (iblk0 V c 0 t) (V c main_arg0) :=
  RowBlk.of_read (fun y => ((cfg0.win 0).blk t).view.emb y)
    (fun y => by
      show win0_0.index t (0 : Fin 2) * 5000 + 1 * (y 0).val = t.val * 5000 + (y 0).val
      rw [(index_maps t).1]; omega)
    (fun y => by
      show win0_0.index t (1 : Fin 2) * 128 + 1 * (y 1).val = (y 1).val
      rw [(index_maps t).2.1]; omega)
    (fun y => rfl)

/-- Window 1's block at every point is its whole array. -/
theorem weights_in (c : Dev nD) (t : Fin cfg0.N) : iblk0 V c 1 t = V c main_arg4 :=
  funext fun y => congrArg (V c main_arg4) (idx2_ext _ _
    (by
      show win0_1.index t (0 : Fin 2) * 128 + 1 * (y 0).val = (y 0).val
      rw [(index_maps t).2.2.1]; omega)
    (by
      show win0_1.index t (1 : Fin 2) * 128 + 1 * (y 1).val = (y 1).val
      rw [(index_maps t).2.2.2.1]; omega))

/-- What point t writes back is block t of the whole product. -/
theorem flushed_eq (c : Dev nD) (t : Fin cfg0.N) :
    (dat0 V c).flushed 2 t = ((cfg0.win 2).blk t).view.read (Elt Ideal) (lin (V c main_arg0) (V c main_arg4)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  rw [weights_in V c t]
  funext y
  exact (body0 (rows_in V c t) (V c main_arg4)).read y (((cfg0.win 2).blk t).view.emb y)
    (by
      show win0_2.index t (0 : Fin 2) * 5000 + 1 * (y 0).val = t.val * 5000 + (y 0).val
      rw [(index_maps t).2.2.2.2.1]; omega)
    (by
      show win0_2.index t (1 : Fin 2) * 128 + 1 * (y 1).val = (y 1).val
      rw [(index_maps t).2.2.2.2.2]; omega)

/-- An index of the output array lies in point t's block iff each coordinate lies in the block's range. -/
theorem mem_block (t : Fin cfg0.N) (i : S40000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v0).slice (win0_2.rect t)).set ↔ _
  rw [View.set_slice_whole, Rect.mem_set_unit]
  exact Iff.rfl

/-- Row r of the output is written by point r / 5000. -/
theorem covered (i : S40000x128.Idx) :
    ∃ t : Fin cfg0.N, (cfg0.win 2).flush t = true ∧ i ∈ ((cfg0.win 2).blk t).view.set := by
  have hi0 : (i 0).val < 40000 := (i 0).isLt
  have hi1 : (i 1).val < 128 := (i 1).isLt
  have hN : grid0.N = 8 := N_0
  let t : Fin cfg0.N := ⟨(i 0).val / 5000, by show (i 0).val / 5000 < grid0.N; omega⟩
  refine ⟨t, flush0_2 t, ?_⟩
  rw [mem_block]
  have ht : t.val = (i 0).val / 5000 := rfl
  intro a
  match a with
  | ⟨0, _⟩ =>
    show win0_2.index t (0 : Fin 2) * 5000 ≤ (i 0).val ∧ (i 0).val < win0_2.index t (0 : Fin 2) * 5000 + 5000
    rw [(index_maps t).2.2.2.2.1]; omega
  | ⟨1, _⟩ =>
    show win0_2.index t (1 : Fin 2) * 128 ≤ (i 1).val ∧ (i 1).val < win0_2.index t (1 : Fin 2) * 128 + 128
    rw [(index_maps t).2.2.2.2.2]; omega

/-- The output array after the launch: the whole product of the two input arrays as found on entry. -/
theorem final (c : Dev nD) : (dat0 V c).arrAt 2 cfg0.N = lin (V c main_arg0) (V c main_arg4) :=
  (dat0 V c).arrAt_eq_of_cover 2 _ (fun t _ => flushed_eq V c t) covered

end Cert.KernelIdeal.Region0

end
-- ==== Proof.Region1.lean ====
/-
  The second launch, at any contents `V` of the buffers on entry: its output array ends holding the aggregated matrix
  (window 0's array) with the bias row (window 1's array) added to every row and the maximum with zero taken.

  The grid has eight points. Point t reads rows 5000·t … 5000·t + 4999 of the aggregated matrix and the whole bias row, and writes back rows
  5000·t … 5000·t + 4999 of the output: by the body's row-block fact these are the same rows of the whole-array
  function, and the eight blocks cover all 40000 rows.
-/
import proofs.«164055_j11321533792937_1_alg».proof.Proof.Gen.KernelIdeal.Frame
import proofs.«164055_j11321533792937_1_alg».proof.Proof.Bodies
import Idealize.ShloMosaic.Lib.Pipeline.Value

set_option maxRecDepth 16384

noncomputable section

namespace Cert.KernelIdeal.Region1

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat Cfg Window)
open Cert.Lib.DenseLayer Cert.Gcn

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row-blocked windows sit at block row t, the others at the origin. -/
theorem index_maps : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- Window 0's block at point t is the block of rows of its array that starts at row 5000·t. -/
theorem rows_in0 (c : Dev nD) (t : Fin cfg1.N) : RowBlk (t.val * 5000) (iblk1 V c 0 t) (V c main_v13) :=
  RowBlk.of_read (fun y => ((cfg1.win 0).blk t).view.emb y)
    (fun y => by
      show win1_0.index t (0 : Fin 2) * 5000 + 1 * (y 0).val = t.val * 5000 + (y 0).val
      rw [(index_maps t).1]; omega)
    (fun y => by
      show win1_0.index t (1 : Fin 2) * 128 + 1 * (y 1).val = (y 1).val
      rw [(index_maps t).2.1]; omega)
    (fun y => rfl)

/-- Window 1's block at every point is its whole array. -/
theorem whole_in1 (c : Dev nD) (t : Fin cfg1.N) : iblk1 V c 1 t = V c main_v14 :=
  funext fun y => congrArg (V c main_v14) (idx2_ext _ _
    (by
      show win1_1.index t (0 : Fin 2) * 1 + 1 * (y 0).val = (y 0).val
      rw [(index_maps t).2.2.1]; omega)
    (by
      show win1_1.index t (1 : Fin 2) * 128 + 1 * (y 1).val = (y 1).val
      rw [(index_maps t).2.2.2.1]; omega))

/-- What point t writes back is block t of the whole-array function. -/
theorem flushed_eq (c : Dev nD) (t : Fin cfg1.N) :
    (dat1 V c).flushed 2 t = ((cfg1.win 2).blk t).view.read (Elt Ideal) (act (V c main_v13) (V c main_v14)) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  rw [whole_in1 V c t]
  funext y
  exact (body1 (rows_in0 V c t) (V c main_v14)).read y (((cfg1.win 2).blk t).view.emb y)
    (by
      show win1_2.index t (0 : Fin 2) * 5000 + 1 * (y 0).val = t.val * 5000 + (y 0).val
      rw [(index_maps t).2.2.2.2.1]; omega)
    (by
      show win1_2.index t (1 : Fin 2) * 128 + 1 * (y 1).val = (y 1).val
      rw [(index_maps t).2.2.2.2.2]; omega)

/-- An index of the output array lies in point t's block iff each coordinate lies in the block's range. -/
theorem mem_block (t : Fin cfg1.N) (i : S40000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v15).slice (win1_2.rect t)).set ↔ _
  rw [View.set_slice_whole, Rect.mem_set_unit]
  exact Iff.rfl

/-- Row r of the output is written by point r / 5000. -/
theorem covered (i : S40000x128.Idx) :
    ∃ t : Fin cfg1.N, (cfg1.win 2).flush t = true ∧ i ∈ ((cfg1.win 2).blk t).view.set := by
  have hi0 : (i 0).val < 40000 := (i 0).isLt
  have hi1 : (i 1).val < 128 := (i 1).isLt
  have hN : grid1.N = 8 := N_1
  let t : Fin cfg1.N := ⟨(i 0).val / 5000, by show (i 0).val / 5000 < grid1.N; omega⟩
  refine ⟨t, flush1_2 t, ?_⟩
  rw [mem_block]
  have ht : t.val = (i 0).val / 5000 := rfl
  intro a
  match a with
  | ⟨0, _⟩ =>
    show win1_2.index t (0 : Fin 2) * 5000 ≤ (i 0).val ∧ (i 0).val < win1_2.index t (0 : Fin 2) * 5000 + 5000
    rw [(index_maps t).2.2.2.2.1]; omega
  | ⟨1, _⟩ =>
    show win1_2.index t (1 : Fin 2) * 128 ≤ (i 1).val ∧ (i 1).val < win1_2.index t (1 : Fin 2) * 128 + 128
    rw [(index_maps t).2.2.2.2.2]; omega

/-- The output array after the launch, as one function of the input arrays as found on entry. -/
theorem final (c : Dev nD) : (dat1 V c).arrAt 2 cfg1.N = act (V c main_v13) (V c main_v14) :=
  (dat1 V c).arrAt_eq_of_cover 2 _ (fun t _ => flushed_eq V c t) covered

end Cert.KernelIdeal.Region1

end
-- ==== Proof.Region2.lean ====
/-
  The third launch, at any contents `V` of the buffers on entry: its output array ends holding the product of the
  hidden features (window 0's array) with the second weight matrix (window 1's array).

  The grid has eight points. Point t reads rows 5000·t … 5000·t + 4999 of the hidden features and the whole weight matrix, and writes back rows
  5000·t … 5000·t + 4999 of the output: by the body's row-block fact these are the same rows of the whole-array
  function, and the eight blocks cover all 40000 rows.
-/
import proofs.«164055_j11321533792937_1_alg».proof.Proof.Gen.KernelIdeal.Frame
import proofs.«164055_j11321533792937_1_alg».proof.Proof.Bodies
import Idealize.ShloMosaic.Lib.Pipeline.Value

set_option maxRecDepth 16384

noncomputable section

namespace Cert.KernelIdeal.Region2

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat Cfg Window)
open Cert.Lib.DenseLayer Cert.Gcn

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row-blocked windows sit at block row t, the others at the origin. -/
theorem index_maps : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Window 0's block at point t is the block of rows of its array that starts at row 5000·t. -/
theorem rows_in0 (c : Dev nD) (t : Fin cfg2.N) : RowBlk (t.val * 5000) (iblk2 V c 0 t) (V c main_v15) :=
  RowBlk.of_read (fun y => ((cfg2.win 0).blk t).view.emb y)
    (fun y => by
      show win2_0.index t (0 : Fin 2) * 5000 + 1 * (y 0).val = t.val * 5000 + (y 0).val
      rw [(index_maps t).1]; omega)
    (fun y => by
      show win2_0.index t (1 : Fin 2) * 128 + 1 * (y 1).val = (y 1).val
      rw [(index_maps t).2.1]; omega)
    (fun y => rfl)

/-- Window 1's block at every point is its whole array. -/
theorem whole_in1 (c : Dev nD) (t : Fin cfg2.N) : iblk2 V c 1 t = V c main_arg6 :=
  funext fun y => congrArg (V c main_arg6) (idx2_ext _ _
    (by
      show win2_1.index t (0 : Fin 2) * 128 + 1 * (y 0).val = (y 0).val
      rw [(index_maps t).2.2.1]; omega)
    (by
      show win2_1.index t (1 : Fin 2) * 128 + 1 * (y 1).val = (y 1).val
      rw [(index_maps t).2.2.2.1]; omega))

/-- What point t writes back is block t of the whole-array function. -/
theorem flushed_eq (c : Dev nD) (t : Fin cfg2.N) :
    (dat2 V c).flushed 2 t = ((cfg2.win 2).blk t).view.read (Elt Ideal) (lin (V c main_v15) (V c main_arg6)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x128) origin]
  rw [whole_in1 V c t]
  funext y
  exact (body2 (rows_in0 V c t) (V c main_arg6)).read y (((cfg2.win 2).blk t).view.emb y)
    (by
      show win2_2.index t (0 : Fin 2) * 5000 + 1 * (y 0).val = t.val * 5000 + (y 0).val
      rw [(index_maps t).2.2.2.2.1]; omega)
    (by
      show win2_2.index t (1 : Fin 2) * 128 + 1 * (y 1).val = (y 1).val
      rw [(index_maps t).2.2.2.2.2]; omega)

/-- An index of the output array lies in point t's block iff each coordinate lies in the block's range. -/
theorem mem_block (t : Fin cfg2.N) (i : S40000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v16).slice (win2_2.rect t)).set ↔ _
  rw [View.set_slice_whole, Rect.mem_set_unit]
  exact Iff.rfl

/-- Row r of the output is written by point r / 5000. -/
theorem covered (i : S40000x128.Idx) :
    ∃ t : Fin cfg2.N, (cfg2.win 2).flush t = true ∧ i ∈ ((cfg2.win 2).blk t).view.set := by
  have hi0 : (i 0).val < 40000 := (i 0).isLt
  have hi1 : (i 1).val < 128 := (i 1).isLt
  have hN : grid2.N = 8 := N_2
  let t : Fin cfg2.N := ⟨(i 0).val / 5000, by show (i 0).val / 5000 < grid2.N; omega⟩
  refine ⟨t, flush2_2 t, ?_⟩
  rw [mem_block]
  have ht : t.val = (i 0).val / 5000 := rfl
  intro a
  match a with
  | ⟨0, _⟩ =>
    show win2_2.index t (0 : Fin 2) * 5000 ≤ (i 0).val ∧ (i 0).val < win2_2.index t (0 : Fin 2) * 5000 + 5000
    rw [(index_maps t).2.2.2.2.1]; omega
  | ⟨1, _⟩ =>
    show win2_2.index t (1 : Fin 2) * 128 ≤ (i 1).val ∧ (i 1).val < win2_2.index t (1 : Fin 2) * 128 + 128
    rw [(index_maps t).2.2.2.2.2]; omega

/-- The output array after the launch, as one function of the input arrays as found on entry. -/
theorem final (c : Dev nD) : (dat2 V c).arrAt 2 cfg2.N = lin (V c main_v15) (V c main_arg6) :=
  (dat2 V c).arrAt_eq_of_cover 2 _ (fun t _ => flushed_eq V c t) covered

end Cert.KernelIdeal.Region2

end
-- ==== Proof.Region3.lean ====
/-
  The fourth launch, at any contents `V` of the buffers on entry: its output array ends holding the aggregated matrix
  (window 0's array) with the bias row (window 1's array) added to every row, the maximum with zero taken, plus the
  first convolution's output (window 2's array).

  The grid has eight points. Point t reads rows 5000·t … 5000·t + 4999 of the aggregated matrix and of the residual matrix, and the whole bias row, and writes back rows
  5000·t … 5000·t + 4999 of the output: by the body's row-block fact these are the same rows of the whole-array
  function, and the eight blocks cover all 40000 rows.
-/
import proofs.«164055_j11321533792937_1_alg».proof.Proof.Gen.KernelIdeal.Frame
import proofs.«164055_j11321533792937_1_alg».proof.Proof.Bodies
import Idealize.ShloMosaic.Lib.Pipeline.Value

set_option maxRecDepth 16384

noncomputable section

namespace Cert.KernelIdeal.Region3

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat Cfg Window)
open Cert.Lib.DenseLayer Cert.Gcn

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row-blocked windows sit at block row t, the others at the origin. -/
theorem index_maps : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0
    ∧ win3_3.index t (0 : Fin 2) = t.val
    ∧ win3_3.index t (1 : Fin 2) = 0 :=
  (by decide +kernel : ∀ t : Fin grid3.N, _)

/-- Window 0's block at point t is the block of rows of its array that starts at row 5000·t. -/
theorem rows_in0 (c : Dev nD) (t : Fin cfg3.N) : RowBlk (t.val * 5000) (iblk3 V c 0 t) (V c main_v29) :=
  RowBlk.of_read (fun y => ((cfg3.win 0).blk t).view.emb y)
    (fun y => by
      show win3_0.index t (0 : Fin 2) * 5000 + 1 * (y 0).val = t.val * 5000 + (y 0).val
      rw [(index_maps t).1]; omega)
    (fun y => by
      show win3_0.index t (1 : Fin 2) * 128 + 1 * (y 1).val = (y 1).val
      rw [(index_maps t).2.1]; omega)
    (fun y => rfl)

/-- Window 1's block at every point is its whole array. -/
theorem whole_in1 (c : Dev nD) (t : Fin cfg3.N) : iblk3 V c 1 t = V c main_v30 :=
  funext fun y => congrArg (V c main_v30) (idx2_ext _ _
    (by
      show win3_1.index t (0 : Fin 2) * 1 + 1 * (y 0).val = (y 0).val
      rw [(index_maps t).2.2.1]; omega)
    (by
      show win3_1.index t (1 : Fin 2) * 128 + 1 * (y 1).val = (y 1).val
      rw [(index_maps t).2.2.2.1]; omega))

/-- Window 2's block at point t is the block of rows of its array that starts at row 5000·t. -/
theorem rows_in2 (c : Dev nD) (t : Fin cfg3.N) : RowBlk (t.val * 5000) (iblk3 V c 2 t) (V c main_v15) :=
  RowBlk.of_read (fun y => ((cfg3.win 2).blk t).view.emb y)
    (fun y => by
      show win3_2.index t (0 : Fin 2) * 5000 + 1 * (y 0).val = t.val * 5000 + (y 0).val
      rw [(index_maps t).2.2.2.2.1]; omega)
    (fun y => by
      show win3_2.index t (1 : Fin 2) * 128 + 1 * (y 1).val = (y 1).val
      rw [(index_maps t).2.2.2.2.2.1]; omega)
    (fun y => rfl)

/-- What point t writes back is block t of the whole-array function. -/
theorem flushed_eq (c : Dev nD) (t : Fin cfg3.N) :
    (dat3 V c).flushed 3 t = ((cfg3.win 3).blk t).view.read (Elt Ideal) (addf (act (V c main_v29) (V c main_v30)) (V c main_v15)) := by
  show (cfg3.win 3).cut (grid3.coords t) ((dat3 V c).after 3 t) = _
  rw [after3_3]
  unfold out3_3
  rw [View.canon_unit_zero origin]
  simp only [View.ld_unit_zero (S := S5000x128) origin, View.ld_unit_zero (S := S1x128) origin]
  rw [whole_in1 V c t]
  funext y
  exact (body3 (rows_in0 V c t) (V c main_v30) (rows_in2 V c t)).read y (((cfg3.win 3).blk t).view.emb y)
    (by
      show win3_3.index t (0 : Fin 2) * 5000 + 1 * (y 0).val = t.val * 5000 + (y 0).val
      rw [(index_maps t).2.2.2.2.2.2.1]; omega)
    (by
      show win3_3.index t (1 : Fin 2) * 128 + 1 * (y 1).val = (y 1).val
      rw [(index_maps t).2.2.2.2.2.2.2]; omega)

/-- An index of the output array lies in point t's block iff each coordinate lies in the block's range. -/
theorem mem_block (t : Fin cfg3.N) (i : S40000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v31).slice (win3_3.rect t)).set ↔ _
  rw [View.set_slice_whole, Rect.mem_set_unit]
  exact Iff.rfl

/-- Row r of the output is written by point r / 5000. -/
theorem covered (i : S40000x128.Idx) :
    ∃ t : Fin cfg3.N, (cfg3.win 3).flush t = true ∧ i ∈ ((cfg3.win 3).blk t).view.set := by
  have hi0 : (i 0).val < 40000 := (i 0).isLt
  have hi1 : (i 1).val < 128 := (i 1).isLt
  have hN : grid3.N = 8 := N_3
  let t : Fin cfg3.N := ⟨(i 0).val / 5000, by show (i 0).val / 5000 < grid3.N; omega⟩
  refine ⟨t, flush3_3 t, ?_⟩
  rw [mem_block]
  have ht : t.val = (i 0).val / 5000 := rfl
  intro a
  match a with
  | ⟨0, _⟩ =>
    show win3_3.index t (0 : Fin 2) * 5000 ≤ (i 0).val ∧ (i 0).val < win3_3.index t (0 : Fin 2) * 5000 + 5000
    rw [(index_maps t).2.2.2.2.2.2.1]; omega
  | ⟨1, _⟩ =>
    show win3_3.index t (1 : Fin 2) * 128 ≤ (i 1).val ∧ (i 1).val < win3_3.index t (1 : Fin 2) * 128 + 128
    rw [(index_maps t).2.2.2.2.2.2.2]; omega

/-- The output array after the launch, as one function of the input arrays as found on entry. -/
theorem final (c : Dev nD) : (dat3 V c).arrAt 3 cfg3.N = addf (act (V c main_v29) (V c main_v30)) (V c main_v15) :=
  (dat3 V c).arrAt_eq_of_cover 3 _ (fun t _ => flushed_eq V c t) covered

end Cert.KernelIdeal.Region3

end
-- ==== Proof.Region4.lean ====
/-
  The fifth launch, at any contents `V` of the buffers on entry: its output array ends holding the product of the
  node features (window 0's array) with the classifier matrix (window 1's array) plus the bias row (window 2's array)
  on every row.

  The grid has eight points. Point t reads rows 5000·t … 5000·t + 4999 of the node features, the whole classifier matrix and the whole bias row, and writes back rows
  5000·t … 5000·t + 4999 of the output: by the body's row-block fact these are the same rows of the whole-array
  function, and the eight blocks cover all 40000 rows.
-/
import proofs.«164055_j11321533792937_1_alg».proof.Proof.Gen.KernelIdeal.Frame
import proofs.«164055_j11321533792937_1_alg».proof.Proof.Bodies
import Idealize.ShloMosaic.Lib.Pipeline.Value

set_option maxRecDepth 16384

noncomputable section

namespace Cert.KernelIdeal.Region4

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat Cfg Window)
open Cert.Lib.DenseLayer Cert.Gcn

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row-blocked windows sit at block row t, the others at the origin. -/
theorem index_maps : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

/-- Window 0's block at point t is the block of rows of its array that starts at row 5000·t. -/
theorem rows_in0 (c : Dev nD) (t : Fin cfg4.N) : RowBlk (t.val * 5000) (iblk4 V c 0 t) (V c main_v31) :=
  RowBlk.of_read (fun y => ((cfg4.win 0).blk t).view.emb y)
    (fun y => by
      show win4_0.index t (0 : Fin 2) * 5000 + 1 * (y 0).val = t.val * 5000 + (y 0).val
      rw [(index_maps t).1]; omega)
    (fun y => by
      show win4_0.index t (1 : Fin 2) * 128 + 1 * (y 1).val = (y 1).val
      rw [(index_maps t).2.1]; omega)
    (fun y => rfl)

/-- Window 1's block at every point is its whole array. -/
theorem whole_in1 (c : Dev nD) (t : Fin cfg4.N) : iblk4 V c 1 t = V c main_arg8 :=
  funext fun y => congrArg (V c main_arg8) (idx2_ext _ _
    (by
      show win4_1.index t (0 : Fin 2) * 128 + 1 * (y 0).val = (y 0).val
      rw [(index_maps t).2.2.1]; omega)
    (by
      show win4_1.index t (1 : Fin 2) * 64 + 1 * (y 1).val = (y 1).val
      rw [(index_maps t).2.2.2.1]; omega))

/-- Window 2's block at every point is its whole array. -/
theorem whole_in2 (c : Dev nD) (t : Fin cfg4.N) : iblk4 V c 2 t = V c main_v32 :=
  funext fun y => congrArg (V c main_v32) (idx2_ext _ _
    (by
      show win4_2.index t (0 : Fin 2) * 1 + 1 * (y 0).val = (y 0).val
      rw [(index_maps t).2.2.2.2.1]; omega)
    (by
      show win4_2.index t (1 : Fin 2) * 64 + 1 * (y 1).val = (y 1).val
      rw [(index_maps t).2.2.2.2.2.1]; omega))

/-- What point t writes back is block t of the whole-array function. -/
theorem flushed_eq (c : Dev nD) (t : Fin cfg4.N) :
    (dat4 V c).flushed 3 t = ((cfg4.win 3).blk t).view.read (Elt Ideal) (cls (V c main_v31) (V c main_arg8) (V c main_v32)) := by
  show (cfg4.win 3).cut (grid4.coords t) ((dat4 V c).after 3 t) = _
  rw [after4_3]
  unfold out4_3
  rw [View.canon_unit_zero origin]
  simp only [View.ld_unit_zero (S := S5000x128) origin, View.ld_unit_zero (S := S128x64) origin, View.ld_unit_zero (S := S1x64) origin]
  rw [whole_in1 V c t, whole_in2 V c t]
  funext y
  exact (body4 (rows_in0 V c t) (V c main_arg8) (V c main_v32)).read y (((cfg4.win 3).blk t).view.emb y)
    (by
      show win4_3.index t (0 : Fin 2) * 5000 + 1 * (y 0).val = t.val * 5000 + (y 0).val
      rw [(index_maps t).2.2.2.2.2.2.1]; omega)
    (by
      show win4_3.index t (1 : Fin 2) * 64 + 1 * (y 1).val = (y 1).val
      rw [(index_maps t).2.2.2.2.2.2.2]; omega)

/-- An index of the output array lies in point t's block iff each coordinate lies in the block's range. -/
theorem mem_block (t : Fin cfg4.N) (i : S40000x64.Idx) :
    i ∈ ((cfg4.win 3).blk t).view.set ↔ ∀ a : Fin 2, win4_3.index t a * S5000x64.size a ≤ (i a).val
      ∧ (i a).val < win4_3.index t a * S5000x64.size a + S5000x64.size a := by
  show i ∈ ((View.whole main_v33).slice (win4_3.rect t)).set ↔ _
  rw [View.set_slice_whole, Rect.mem_set_unit]
  exact Iff.rfl

/-- Row r of the output is written by point r / 5000. -/
theorem covered (i : S40000x64.Idx) :
    ∃ t : Fin cfg4.N, (cfg4.win 3).flush t = true ∧ i ∈ ((cfg4.win 3).blk t).view.set := by
  have hi0 : (i 0).val < 40000 := (i 0).isLt
  have hi1 : (i 1).val < 64 := (i 1).isLt
  have hN : grid4.N = 8 := N_4
  let t : Fin cfg4.N := ⟨(i 0).val / 5000, by show (i 0).val / 5000 < grid4.N; omega⟩
  refine ⟨t, flush4_3 t, ?_⟩
  rw [mem_block]
  have ht : t.val = (i 0).val / 5000 := rfl
  intro a
  match a with
  | ⟨0, _⟩ =>
    show win4_3.index t (0 : Fin 2) * 5000 ≤ (i 0).val ∧ (i 0).val < win4_3.index t (0 : Fin 2) * 5000 + 5000
    rw [(index_maps t).2.2.2.2.2.2.1]; omega
  | ⟨1, _⟩ =>
    show win4_3.index t (1 : Fin 2) * 64 ≤ (i 1).val ∧ (i 1).val < win4_3.index t (1 : Fin 2) * 64 + 64
    rw [(index_maps t).2.2.2.2.2.2.2]; omega

/-- The output array after the launch, as one function of the input arrays as found on entry. -/
theorem final (c : Dev nD) : (dat4 V c).arrAt 3 cfg4.N = cls (V c main_v31) (V c main_arg8) (V c main_v32) :=
  (dat4 V c).arrAt_eq_of_cover 3 _ (fun t _ => flushed_eq V c t) covered

end Cert.KernelIdeal.Region4

end
-- ==== Proof.Fold.lean ====
/-
  The fold through @main's segments, read at the result array.

  The run of the idealized kernel ends with every buffer at the last contents of a fold: launch memory; first launch
  (the product x·W1); a host stretch (the adjacency applied to it, the bias b1 as a row); second launch (bias and
  maximum with zero: the hidden features h); third launch (h·W2); a host stretch (the adjacency again, b2 as a row);
  fourth launch (bias, maximum with zero, plus h: h2); a host stretch (bf as a row); fifth launch (h2·Wf plus the
  bias row). Each launch's output array is the whole-array function of its region's module at the contents found on
  entry; each host stretch's buffers are its operations' composed term; an argument array that no launch writes and no
  host operation defines still holds its launch contents. Composed, the result array holds the network of the ten
  arguments. A vector reshaped to one row is the same row as the vector broadcast along a new leading axis.
-/
import proofs.«164055_j11321533792937_1_alg».proof.Proof.Region0
import proofs.«164055_j11321533792937_1_alg».proof.Proof.Region1
import proofs.«164055_j11321533792937_1_alg».proof.Proof.Region2
import proofs.«164055_j11321533792937_1_alg».proof.Proof.Region3
import proofs.«164055_j11321533792937_1_alg».proof.Proof.Region4
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.ValueIdx Idealize.SL.Sem Idealize.ShloMosaic.StableHlo
open Cert.Lib.DenseLayer Cert.Gcn

variable (m : (ℓ : Loc nD τ sig) → Buf (Elt Ideal) ℓ) (ρ : Dev nD → PrngReg) (c : Dev nD)

/-- No operation of a host stretch defines the buffer: one inequality of references per operation. -/
macro "host_keeps " ops:ident : tactic => `(tactic| (
  refine List.forall_iff_forall_mem.mp ?_
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## A buffer nothing writes, up to each boundary -/

theorem at1 (b : Ref sig .tc) (h0 : ∀ w, Pipeline.arrRef spec0 w ≠ b) :
    W1 m ρ c (Proc.devRef .tc b) = m ((c.tc : Thread nD τ).loc b) := W1_of_ne m ρ c b h0

theorem at2 (b : Ref sig .tc) (h0 : ∀ w, Pipeline.arrRef spec0 w ≠ b)
    (h1 : ∀ op ∈ (hostOps1 : List (HloOp τ sig (Elt Ideal))), Proc.devRef .tc b ∉ op.writes) :
    W2 m ρ c (Proc.devRef .tc b) = m ((c.tc : Thread nD τ).loc b) :=
  (StableHlo.after_of_forall_not_mem (b := Proc.devRef .tc b) _ _ h1).trans (at1 m ρ c b h0)

theorem at3 (b : Ref sig .tc) (h0 : ∀ w, Pipeline.arrRef spec0 w ≠ b)
    (h1 : ∀ op ∈ (hostOps1 : List (HloOp τ sig (Elt Ideal))), Proc.devRef .tc b ∉ op.writes)
    (h2 : ∀ w, Pipeline.arrRef spec1 w ≠ b) :
    W3 m ρ c (Proc.devRef .tc b) = m ((c.tc : Thread nD τ).loc b) :=
  (W3_of_ne m ρ c b h2).trans (at2 m ρ c b h0 h1)

theorem at4 (b : Ref sig .tc) (h0 : ∀ w, Pipeline.arrRef spec0 w ≠ b)
    (h1 : ∀ op ∈ (hostOps1 : List (HloOp τ sig (Elt Ideal))), Proc.devRef .tc b ∉ op.writes)
    (h2 : ∀ w, Pipeline.arrRef spec1 w ≠ b) (h3 : ∀ w, Pipeline.arrRef spec2 w ≠ b) :
    W4 m ρ c (Proc.devRef .tc b) = m ((c.tc : Thread nD τ).loc b) :=
  (W4_of_ne m ρ c b h3).trans (at3 m ρ c b h0 h1 h2)

theorem at5 (b : Ref sig .tc) (h0 : ∀ w, Pipeline.arrRef spec0 w ≠ b)
    (h1 : ∀ op ∈ (hostOps1 : List (HloOp τ sig (Elt Ideal))), Proc.devRef .tc b ∉ op.writes)
    (h2 : ∀ w, Pipeline.arrRef spec1 w ≠ b) (h3 : ∀ w, Pipeline.arrRef spec2 w ≠ b)
    (h4 : ∀ op ∈ (hostOps3 : List (HloOp τ sig (Elt Ideal))), Proc.devRef .tc b ∉ op.writes) :
    W5 m ρ c (Proc.devRef .tc b) = m ((c.tc : Thread nD τ).loc b) :=
  (StableHlo.after_of_forall_not_mem (b := Proc.devRef .tc b) _ _ h4).trans (at4 m ρ c b h0 h1 h2 h3)

theorem at6 (b : Ref sig .tc) (h0 : ∀ w, Pipeline.arrRef spec0 w ≠ b)
    (h1 : ∀ op ∈ (hostOps1 : List (HloOp τ sig (Elt Ideal))), Proc.devRef .tc b ∉ op.writes)
    (h2 : ∀ w, Pipeline.arrRef spec1 w ≠ b) (h3 : ∀ w, Pipeline.arrRef spec2 w ≠ b)
    (h4 : ∀ op ∈ (hostOps3 : List (HloOp τ sig (Elt Ideal))), Proc.devRef .tc b ∉ op.writes)
    (h5 : ∀ w, Pipeline.arrRef spec3 w ≠ b) :
    W6 m ρ c (Proc.devRef .tc b) = m ((c.tc : Thread nD τ).loc b) :=
  (W6_of_ne m ρ c b h5).trans (at5 m ρ c b h0 h1 h2 h3 h4)

theorem at7 (b : Ref sig .tc) (h0 : ∀ w, Pipeline.arrRef spec0 w ≠ b)
    (h1 : ∀ op ∈ (hostOps1 : List (HloOp τ sig (Elt Ideal))), Proc.devRef .tc b ∉ op.writes)
    (h2 : ∀ w, Pipeline.arrRef spec1 w ≠ b) (h3 : ∀ w, Pipeline.arrRef spec2 w ≠ b)
    (h4 : ∀ op ∈ (hostOps3 : List (HloOp τ sig (Elt Ideal))), Proc.devRef .tc b ∉ op.writes)
    (h5 : ∀ w, Pipeline.arrRef spec3 w ≠ b)
    (h6 : ∀ op ∈ (hostOps4 : List (HloOp τ sig (Elt Ideal))), Proc.devRef .tc b ∉ op.writes) :
    W7 m ρ c (Proc.devRef .tc b) = m ((c.tc : Thread nD τ).loc b) :=
  (StableHlo.after_of_forall_not_mem (b := Proc.devRef .tc b) _ _ h6).trans (at6 m ρ c b h0 h1 h2 h3 h4 h5)

/-! ## The host stretches, from any contents -/

/-- After the first stretch the aggregation buffer holds the adjacency applied to the first product. -/
theorem host1_agg (W : Valuation τ sig (Elt Ideal)) :
    StableHlo.after hostOps1 W (Proc.devRef .tc main_v13)
      = agg (W (Proc.devRef .tc main_arg1)) (W (Proc.devRef .tc main_arg2)) (W (Proc.devRef .tc main_arg3))
          (W (Proc.devRef .tc main_v0)) := by
  after_results; rfl

/-- … and the bias buffer holds b1 as one row. -/
theorem host1_row (W : Valuation τ sig (Elt Ideal)) :
    StableHlo.after hostOps1 W (Proc.devRef .tc main_v14)
      = shapeCast S1x128 (W (Proc.devRef .tc main_arg5)) shapeCasts_S128_S1x128 := by
  after_results; rfl

theorem host3_agg (W : Valuation τ sig (Elt Ideal)) :
    StableHlo.after hostOps3 W (Proc.devRef .tc main_v29)
      = agg (W (Proc.devRef .tc main_arg1)) (W (Proc.devRef .tc main_arg2)) (W (Proc.devRef .tc main_arg3))
          (W (Proc.devRef .tc main_v16)) := by
  after_results; rfl

theorem host3_row (W : Valuation τ sig (Elt Ideal)) :
    StableHlo.after hostOps3 W (Proc.devRef .tc main_v30)
      = shapeCast S1x128 (W (Proc.devRef .tc main_arg7)) shapeCasts_S128_S1x128 := by
  after_results; rfl

theorem host4_row (W : Valuation τ sig (Elt Ideal)) :
    StableHlo.after hostOps4 W (Proc.devRef .tc main_v32)
      = shapeCast S1x64 (W (Proc.devRef .tc main_arg9)) shapeCasts_S64_S1x64 := by
  after_results; rfl

/-! ## The fold, boundary by boundary -/

set_option quotPrecheck false

local notation "x₀" => m ((c.tc : Thread nD τ).loc main_arg0)
local notation "er" => m ((c.tc : Thread nD τ).loc main_arg1)
local notation "ec" => m ((c.tc : Thread nD τ).loc main_arg2)
local notation "ev" => m ((c.tc : Thread nD τ).loc main_arg3)
local notation "w₁" => m ((c.tc : Thread nD τ).loc main_arg4)
local notation "b₁" => m ((c.tc : Thread nD τ).loc main_arg5)
local notation "w₂" => m ((c.tc : Thread nD τ).loc main_arg6)
local notation "b₂" => m ((c.tc : Thread nD τ).loc main_arg7)
local notation "wf" => m ((c.tc : Thread nD τ).loc main_arg8)
local notation "bf" => m ((c.tc : Thread nD τ).loc main_arg9)

/-- After the first launch its output array holds x·W1. -/
theorem product1 : W1 m ρ c (Proc.devRef .tc main_v0) = lin x₀ w₁ :=
  (W1_arr m ρ c 2).trans (Region0.final (V0 m ρ) c)

/-- After the second launch its output array holds the hidden features. -/
theorem hidden_eq : W3 m ρ c (Proc.devRef .tc main_v15) = layer1 x₀ er ec ev w₁ b₁ := by
  refine (W3_arr m ρ c 2).trans ((Region1.final (V2 m ρ) c).trans ?_)
  show act (StableHlo.after hostOps1 (W1 m ρ c) (Proc.devRef .tc main_v13))
    (StableHlo.after hostOps1 (W1 m ρ c) (Proc.devRef .tc main_v14)) = _
  rw [host1_agg, host1_row, product1 m ρ c, at1 m ρ c main_arg1 (by decide), at1 m ρ c main_arg2 (by decide),
    at1 m ρ c main_arg3 (by decide), at1 m ρ c main_arg5 (by decide)]
  unfold layer1 row
  exact congrArg (act _) (addUnit_eq_bcast (n := 128) (by decide) _ _ _)

/-- After the third launch its output array holds h·W2. -/
theorem product2 : W4 m ρ c (Proc.devRef .tc main_v16) = lin (layer1 x₀ er ec ev w₁ b₁) w₂ := by
  refine (W4_arr m ρ c 2).trans ((Region2.final (V3 m ρ) c).trans ?_)
  show lin (W3 m ρ c (Proc.devRef .tc main_v15)) (W3 m ρ c (Proc.devRef .tc main_arg6)) = _
  rw [hidden_eq m ρ c, at3 m ρ c main_arg6 (by decide) (by host_keeps hostOps1) (by decide)]

/-- The hidden features are still in their array when the fourth launch reads them: the third launch only reads that
    array and the second host stretch does not define it. -/
theorem residual : W5 m ρ c (Proc.devRef .tc main_v15) = layer1 x₀ er ec ev w₁ b₁ := by
  refine (StableHlo.after_of_forall_not_mem (b := Proc.devRef .tc main_v15) _ _ (by host_keeps hostOps3)).trans ?_
  refine (W4_arr m ρ c 0).trans (((dat2 (V3 m ρ) c).arrAt_in 0 rfl _).trans ?_)
  exact (A_eq2 (V3 m ρ) c 0).trans (hidden_eq m ρ c)

/-- After the fourth launch its output array holds the second convolution plus the first. -/
theorem hidden2_eq : W6 m ρ c (Proc.devRef .tc main_v31)
    = layer2 (layer1 x₀ er ec ev w₁ b₁) er ec ev w₂ b₂ := by
  refine (W6_arr m ρ c 3).trans ((Region3.final (V5 m ρ) c).trans ?_)
  show addf (act (StableHlo.after hostOps3 (W4 m ρ c) (Proc.devRef .tc main_v29))
    (StableHlo.after hostOps3 (W4 m ρ c) (Proc.devRef .tc main_v30))) (W5 m ρ c (Proc.devRef .tc main_v15)) = _
  rw [host3_agg, host3_row, product2 m ρ c, residual m ρ c,
    at4 m ρ c main_arg1 (by decide) (by host_keeps hostOps1) (by decide) (by decide),
    at4 m ρ c main_arg2 (by decide) (by host_keeps hostOps1) (by decide) (by decide),
    at4 m ρ c main_arg3 (by decide) (by host_keeps hostOps1) (by decide) (by decide),
    at4 m ρ c main_arg7 (by decide) (by host_keeps hostOps1) (by decide) (by decide)]
  unfold layer2 row
  exact congrArg (fun r => addf (act _ r) _) (addUnit_eq_bcast (n := 128) (by decide) _ _ _)

/-- That array is untouched by the last host stretch. -/
theorem hidden2_kept : W7 m ρ c (Proc.devRef .tc main_v31)
    = layer2 (layer1 x₀ er ec ev w₁ b₁) er ec ev w₂ b₂ :=
  (StableHlo.after_of_forall_not_mem (b := Proc.devRef .tc main_v31) _ _ (by host_keeps hostOps4)).trans
    (hidden2_eq m ρ c)

/-- After the fifth launch the result array holds the network of the ten arguments. -/
theorem result : W8 m ρ c (Proc.devRef .tc main_v33) = net x₀ er ec ev w₁ b₁ w₂ b₂ wf bf := by
  refine (W8_arr m ρ c 3).trans ((Region4.final (V7 m ρ) c).trans ?_)
  show cls (W7 m ρ c (Proc.devRef .tc main_v31)) (W7 m ρ c (Proc.devRef .tc main_arg8))
    (StableHlo.after hostOps4 (W6 m ρ c) (Proc.devRef .tc main_v32)) = _
  rw [host4_row, hidden2_kept m ρ c,
    at6 m ρ c main_arg9 (by decide) (by host_keeps hostOps1) (by decide) (by decide) (by host_keeps hostOps3) (by decide),
    at7 m ρ c main_arg8 (by decide) (by host_keeps hostOps1) (by decide) (by decide) (by host_keeps hostOps3) (by decide)
      (by host_keeps hostOps4)]
  unfold net row64
  exact congrArg (cls _ _) (addUnit_eq_bcast (n := 64) (by decide) _ _ _)

end Cert.KernelIdeal.Fold

end
-- ==== Proof.RefNet.lean ====
/-
  The idealized reference's run, with its result named as the network.

  The reference's @main is a straight line of host operations; its result, composed from the arguments, is the
  network of `Cert.Gcn.net` word for word (the convolution's maximum with zero is the called helper's body).
-/
import proofs.«164055_j11321533792937_1_alg».proof.Proof.Spec
import proofs.«164055_j11321533792937_1_alg».proof.Proof.Gen.ReferenceIdeal.Run

noncomputable section

namespace Cert.Gcn

open Idealize.ShloMosaic Idealize.ShloMosaic.TcCoe Idealize.SL.Sem Cert.ReferenceIdeal Cert.ReferenceIdeal.Gen

/-- Every weakly fair execution of the reference terminates with its result at the network of its arguments, the
    arguments unchanged. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v40) =
        net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans rfl, (h c).2⟩) (Cert.ReferenceIdeal.Value.run (F := Ideal) m ρ)

end Cert.Gcn

end
-- ==== Proof.lean ====
/-
  A two-layer graph convolution network with a residual connection and a linear classifier: the kernel against its
  reference, over the extended reals.

  Both programs compute, from node features x (40000×128), an adjacency given as 640000 (row, column, value) triples,
  weights W1, W2 (128×128), Wf (128×64) and biases b1, b2, bf,

      h  = max(A·(x·W1) + b1, 0),    h2 = max(A·(h·W2) + b2, 0) + h,    out = h2·Wf + bf,

  where A·Z sums, for every edge, the value times row `column` of Z into row `row`. The reference is one straight
  line of host operations. The kernel computes the three matrix products and the two bias/maximum steps in five
  launches over eight blocks of 5000 rows each, and the adjacency step A·Z by the very same host operations as the
  reference. Every operation of a launch acts on each row by itself, so a launch's output, block by block, is the
  whole-matrix operation applied to its input arrays (the modules `Region0` … `Region4` over `Bodies`); the run of the
  five launches and the host stretches between them is a fold from the launch memory (`RunAll`), and read at the result
  array that fold is the network of the ten arguments (`Fold`), which is also, word for word, the reference's composed
  term (`RefNet`). The two sides are the same sums of the same products: no finiteness of the inputs is used. The
  idealization rewrote no operation, so the kernel's idealization is preserved trivially.
-/
import proofs.«164055_j11321533792937_1_alg».proof.Defs
import proofs.«164055_j11321533792937_1_alg».proof.Proof.Gen.Kernel
import proofs.«164055_j11321533792937_1_alg».proof.Proof.Gen.Kernel.Skeleton
import proofs.«164055_j11321533792937_1_alg».proof.Proof.Gen.Kernel.Launch
import proofs.«164055_j11321533792937_1_alg».proof.Proof.Gen.Kernel.Points
import proofs.«164055_j11321533792937_1_alg».proof.Proof.Gen.Kernel.Frame
import proofs.«164055_j11321533792937_1_alg».proof.Proof.Gen.KernelIdeal
import proofs.«164055_j11321533792937_1_alg».proof.Proof.Gen.KernelIdeal.Skeleton
import proofs.«164055_j11321533792937_1_alg».proof.Proof.Gen.KernelIdeal.Launch
import proofs.«164055_j11321533792937_1_alg».proof.Proof.Gen.KernelIdeal.Points
import proofs.«164055_j11321533792937_1_alg».proof.Proof.Gen.KernelIdeal.Frame
import proofs.«164055_j11321533792937_1_alg».proof.Proof.Gen.ReferenceIdeal
import proofs.«164055_j11321533792937_1_alg».proof.Proof.Gen.Pre_finite_inputs
import proofs.«164055_j11321533792937_1_alg».proof.Proof.Gen.ReferenceIdeal.Run
import proofs.«164055_j11321533792937_1_alg».proof.Proof.RunAll
import proofs.«164055_j11321533792937_1_alg».proof.Proof.Fold
import proofs.«164055_j11321533792937_1_alg».proof.Proof.RefNet
import Idealize.ShloMosaic.Adequacy
import Idealize.ShloMosaic.Init

noncomputable section

namespace Cert.Proof

open Idealize.ShloMosaic Idealize.ShloMosaic.TcCoe Idealize.SL.Sem

/-- The three programs run to the end and leave their argument arrays as launched. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.Gcn.reference_run m ρ)

/-- From memories that agree on the ten arguments both idealized programs end with the network of those arguments in
    their result arrays. -/
theorem algebraic : Cert.algebraic_KernelIdeal_ReferenceIdeal := by
  intro m ρ m' ρ' _ hagree
  refine ⟨fun c => Cert.Gcn.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Fold.result m ρ c), (h c).2⟩)
      (Cert.KernelIdeal.RunValue.run_result (F := Ideal) m ρ)
  · refine (θ_run Cert.ReferenceIdeal.defs _ _).mono (fun r h c => ⟨(h c).1.trans ?_, (h c).2⟩)
      (Cert.Gcn.reference_run m' ρ')
    obtain ⟨e0, e1, e2, e3, e4, e5, e6, e7, e8, e9⟩ := hagree c
    rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
